-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S256x1024 : Shape := ⟨2, ![256, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S1024x1024 .f32) (main_arg1 : FVec F S256x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S256x1024, .f32⟩
  | .hbm, ⟨2, _⟩ => ⟨S1024x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x256, .f32⟩
  | .local _ .vmem, ⟨4, _⟩ => ⟨S256x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  bitsLt_bf16_f32 : FTy.bits .bf16 < FTy.bits .f32
  broadcasts_S256x1_S256x256 : S256x1.Broadcasts S256x256
  shapeCasts_S256_S1x256 : S256.ShapeCasts S1x256
  broadcasts_S1x256_S256x256 : S1x256.Broadcasts S256x256
  reduces_S256x256_S256 : S256x256.Reduces [1] S256
  inb_S256x256_S256x256_0_0 : ∀ a, (![0, 0] : Fin 2 → Nat) a + S256x256.size a ≤ S256x256.size a
  h_S256x256 : 0 < S256x256.numel
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .f32 = 32 ∨ (Rect.block (s := S1024x256) S256x256.size (cc0_transform_2 i) (hinb0_2 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S256x1024 : Shape := ⟨2, ![256, 1024]⟩
abbrev S_ : Shape := ⟨0, ![]⟩
abbrev S1024 : Shape := ⟨1, ![1024]⟩
abbrev S1024x1 : Shape := ⟨2, ![1024, 1]⟩
abbrev S256 : Shape := ⟨1, ![256]⟩
abbrev S1024x256 : Shape := ⟨2, ![1024, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S256x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  reducesTo_S256x1024_S256_d1 : S256x1024.ReducesTo [1] S256
  bcast_S_S1024x256 : S_.BroadcastsInDim S1024x256 (![] : Fin 0 → Fin S1024x256.rank)
  bcast_S1024x1_S1024x256_0_1 : S1024x1.BroadcastsInDim S1024x256 (![0, 1] : Fin 2 → Fin S1024x256.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S1024_d1 : S1024x256.ReducesTo [1] S1024
  bcast_S_S1024 : S_.BroadcastsInDim S1024 (![] : Fin 0 → Fin S1024.rank)
  dot_S1024x1024_S256x1024_S1024x256_1_1_0_0_n_n_wf : DotDims.WF S1024x1024 S256x1024 S1024x256 [1] [1] [0] [0] [] []

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

class Facts : Prop extends Facts₀ where

variable [Facts]
-- ==== Proof.DistanceSoftmax.lean ====
/-
  One minus the softmax of the distances from a context row to the result rows.

  For a context row u and result rows Y_0, …, Y_255 (1024 entries each) the distance from u to Y_q is taken through
  the Gram identity,

      d_q = sqrt (max (|u|² − 2·⟨u, Y_q⟩ + |Y_q|², 0)),

  the row's top value is t = max (−∞, max_q d_q) (the maximum folded from −∞, and joined with −∞ once more, as a
  softmax computes it), the weights are w_q = exp (d_q − t), and the output at q is 1 − w_q / Σ_r w_r. All of it on the
  extended reals, where square root, exponential and quotient are the exact instance's total functions; the four
  float words that occur (0, 2, 1 and −∞) are kept as words and never evaluated.

  Output row n of the whole array depends on row n of the first argument and on all of the second: `probabilities`.
-/
import Idealize.ShloMosaic.PureOps.Ideal
import Idealize.ShloMosaic.Lib.ValueIdx

noncomputable section

namespace Cert.DistanceSoftmax

open Idealize.ShloMosaic Idealize.ShloMosaic.ValueIdx
open scoped BigOperators

/-- |u|²: the sum of the squares of a row's entries. -/
def sqNorm (u : Fin 1024 → EReal) : EReal := ∑ k : Fin 1024, u k * u k

/-- ⟨u, v⟩: the sum of the products of two rows' entries. -/
def inner (u v : Fin 1024 → EReal) : EReal := ∑ k : Fin 1024, u k * v k

/-- The distance from `u` to the `q`-th result row: the square root of the Gram form, cut off below at zero. -/
def dist (u : Fin 1024 → EReal) (Y : Fin 256 → Fin 1024 → EReal) (q : Fin 256) : EReal :=
  Ideal.sqrt (max (sqNorm u - Ideal.ofBits .f32 0x40000000#32 * inner u (Y q) + sqNorm (Y q)) (Ideal.ofBits .f32 0x00000000#32))

/-- The largest of a row's distances, folded from −∞ and joined with −∞. -/
def top (u : Fin 1024 → EReal) (Y : Fin 256 → Fin 1024 → EReal) : EReal :=
  max (Ideal.ofBits .f32 0xFF800000#32)
    ((Finset.univ : Finset (Fin 256)).fold max (Ideal.ofBits .f32 0xFF800000#32) (fun q => dist u Y q))

/-- The softmax weight of the `q`-th distance before normalizing. -/
def weight (u : Fin 1024 → EReal) (Y : Fin 256 → Fin 1024 → EReal) (q : Fin 256) : EReal :=
  Ideal.exp (dist u Y q - top u Y)

/-- One minus the normalized weight. -/
def complement (u : Fin 1024 → EReal) (Y : Fin 256 → Fin 1024 → EReal) (q : Fin 256) : EReal :=
  Ideal.ofBits .f32 0x3F800000#32 - Ideal.div (weight u Y q) (∑ r : Fin 256, weight u Y r)

/-- Row `n` of a matrix as a function of the column. -/
def row {a b : ℕ} (x : (⟨2, ![a, b]⟩ : Shape).Idx → EReal) (n : Fin a) : Fin b → EReal := fun k => x (ix2 n k)

/-- The whole result: at `(n, q)`, the complement for context row `n` against all result rows, at `q`. -/
def probabilities (x : (⟨2, ![1024, 1024]⟩ : Shape).Idx → EReal) (y : (⟨2, ![256, 1024]⟩ : Shape).Idx → EReal) :
    (⟨2, ![1024, 256]⟩ : Shape).Idx → EReal :=
  fun i => complement (row x (i 0)) (row y) (i 1)

theorem probabilities_apply (x : (⟨2, ![1024, 1024]⟩ : Shape).Idx → EReal) (y : (⟨2, ![256, 1024]⟩ : Shape).Idx → EReal)
    (n : Fin 1024) (q : Fin 256) : probabilities x y (ix2 n q) = complement (row x n) (row y) q := rfl

end Cert.DistanceSoftmax

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.BlockValue.lean ====
/-
  What the kernel's body computes from its two input blocks, entry by entry.

  The body receives 256 context rows (a block of the first argument) and all 256 result rows, and writes a 256 × 256
  block. Entry (p, q) of that block depends only on the block's row p and on the result rows: it is the complement of
  the normalized softmax weight of the distance from row p to result row q (`Cert.DistanceSoftmax.complement`).
  The steps: the two squared norms are row sums; the cross term is a matrix product into a zero accumulator, a sum over
  the shared axis (the change of format in front of it is the identity on exact values); a per-row quantity kept as a
  column and repeated along the row reads the row's value, a per-column one laid as a row and repeated down reads the
  column's; the row maximum is a fold of `max` from −∞ and the normalizer a row sum.
-/
import proofs.«155934_j13881334300951_1_alg».proof.Proof.Gen.KernelIdeal.Skeleton
import proofs.«155934_j13881334300951_1_alg».proof.Proof.DistanceSoftmax
import proofs.«155934_j13881334300951_1_alg».proof.Proof.LibRowwise
import proofs.«155934_j13881334300951_1_alg».proof.Proof.LibMatmul2d

noncomputable section

namespace Cert.KernelIdeal.Block

open Cert.KernelIdeal Cert.KernelIdeal.Gen Idealize.ShloMosaic Idealize.ShloMosaic.ValueIdx
open Cert.DistanceSoftmax Cert.LibRowwise
open scoped BigOperators

/-! ## The reductions and the product as the body spells them -/

/-- A row sum from the zero word. -/
theorem rowSum_zero {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  rowSum_apply src 0x00000000#32 h hφ hacc p

/-- A row maximum from the word of −∞. -/
theorem rowMax_negInf {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  rowMax_apply src 0xFF800000#32 h hφ hacc p

/-- The cross term: rows of the left block against rows of the right block. -/
theorem cross_apply (l r : FVec Ideal S256x1024 .bf16) (p q : Fin 256) :
    matmul dot_S256x1024_S256x1024_S256x256_1_1_0_0_n_n none l r (constant S256x256 .f32 0x00000000#32) (ix2 p q)
      = ∑ k : Fin 1024, l (ix2 p k) * r (ix2 q k) :=
  Cert.LibMatmul2d.matmul_transposedRhs_apply (M := 256) (K := 1024) (N := 256) l r p q

/-! ## The distances -/

/-- The block of distances, as the body computes it from its two input blocks. -/
def distBlock (x0 x1 : FVec Ideal S256x1024 .f32) : FVec Ideal S256x256 .f32 :=
  sqrt (maximumf
    (addf
      (subf
        (broadcastTo S256x256 (shapeCast S256x1 (multiReduction .add [1] S256 (mulf x0 x0) 0x00000000#32 reduces_S256x1024_S256 (.inl rfl) rfl) shapeCasts_S256_S256x1) broadcasts_S256x1_S256x256)
        (mulf (broadcast S256x256 (Scalar.ofBits .f32 0x40000000#32))
          (matmul dot_S256x1024_S256x1024_S256x256_1_1_0_0_n_n none (truncf .bf16 x0 bitsLt_bf16_f32) (truncf .bf16 x1 bitsLt_bf16_f32) (constant S256x256 .f32 0x00000000#32))))
      (broadcastTo S256x256 (shapeCast S1x256 (multiReduction .add [1] S256 (mulf x1 x1) 0x00000000#32 reduces_S256x1024_S256 (.inl rfl) rfl) shapeCasts_S256_S1x256) broadcasts_S1x256_S256x256))
    (broadcast S256x256 (Scalar.ofBits .f32 0x00000000#32)))

/-- Entry (p, q) of the distances: the distance from the left block's row p to the right block's row q. -/
theorem distBlock_apply (x0 x1 : FVec Ideal S256x1024 .f32) (p q : Fin 256) :
    distBlock x0 x1 (ix2 p q) = dist (row x0 p) (row x1) q := by
  unfold distBlock
  simp only [sqrt, maximumf, addf, subf, broadcast]
  rw [perRow_apply, perColumn_apply, rowSum_zero, rowSum_zero]
  simp only [mulf]
  rw [cross_apply]
  rfl

/-! ## The weights -/

/-- The block of softmax weights before normalizing. -/
def weightBlock (x0 x1 : FVec Ideal S256x1024 .f32) : FVec Ideal S256x256 .f32 :=
  exp (subf (distBlock x0 x1)
    (broadcastTo S256x256
      (shapeCast S256x1
        (maximumf (broadcast S256 (Scalar.ofBits .f32 0xFF800000#32))
          (multiReduction .maximumf [1] S256 (distBlock x0 x1) 0xFF800000#32 reduces_S256x256_S256 (.inl rfl) rfl))
        shapeCasts_S256_S256x1)
      broadcasts_S256x1_S256x256))

/-- Entry (p, q) of the weights. -/
theorem weightBlock_apply (x0 x1 : FVec Ideal S256x1024 .f32) (p q : Fin 256) :
    weightBlock x0 x1 (ix2 p q) = weight (row x0 p) (row x1) q := by
  unfold weightBlock
  simp only [exp, subf]
  rw [perRow_apply]
  simp only [maximumf, broadcast]
  rw [rowMax_negInf, distBlock_apply]
  simp only [distBlock_apply]
  rfl

/-! ## The payload -/

/-- The body's stored value is one minus the weights over their row sums. -/
theorem pay_eq (x0 x1 : FVec Ideal S256x1024 .f32) :
    k0_pay1 (F := Ideal) x0 x1
      = subf (broadcast S256x256 (Scalar.ofBits .f32 0x3F800000#32))
          (divf (weightBlock x0 x1)
            (broadcastTo S256x256
              (shapeCast S256x1 (multiReduction .add [1] S256 (weightBlock x0 x1) 0x00000000#32 reduces_S256x256_S256 (.inl rfl) rfl) shapeCasts_S256_S256x1)
              broadcasts_S256x1_S256x256)) := rfl

/-- Entry (p, q) of the body's stored value. -/
theorem pay_apply (x0 x1 : FVec Ideal S256x1024 .f32) (p q : Fin 256) :
    k0_pay1 (F := Ideal) x0 x1 (ix2 p q) = complement (row x0 p) (row x1) q := by
  rw [pay_eq]
  simp only [subf, divf, broadcast]
  rw [perRow_apply, rowSum_zero, weightBlock_apply]
  simp only [weightBlock_apply]
  rfl

/-- The same at any index of the block, by its two coordinates. -/
theorem pay_at (x0 x1 : FVec Ideal S256x1024 .f32) (j : S256x256.Idx) :
    k0_pay1 (F := Ideal) x0 x1 j = complement (row x0 (j 0)) (row x1) (j 1) := by
  obtain ⟨p, q, rfl⟩ : ∃ (p q : Fin 256), j = ix2 p q := ⟨j 0, j 1, eq_ix2 j⟩
  exact pay_apply x0 x1 p q

end Cert.KernelIdeal.Block

end
-- ==== Proof.ArrayValue.lean ====
/-
  From the blocks to the whole array.

  The grid has four points; point t reads rows 256·t … 256·t + 255 of the first argument and all of the second, and
  writes rows 256·t … 256·t + 255 of the result. Since entry (p, q) of a written block depends only on the block's
  row p of the first argument (and on the second argument), what point t writes back is block t of ONE whole-array
  function, `Cert.DistanceSoftmax.probabilities` of the two arguments; the four blocks cover every row, so after the
  run the result array is that function.
-/
import proofs.«155934_j13881334300951_1_alg».proof.Proof.Gen.KernelIdeal.Value
import proofs.«155934_j13881334300951_1_alg».proof.Proof.BlockValue
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.DistanceSoftmax

variable (m : (ℓ : Loc nD τ sig) → Buf (Elt Ideal) ℓ) (ρ : Dev nD → PrngReg)

theorem zeroOffsets : (![0, 0] : Fin 2 → Nat) = fun _ => 0 := funext fun a => by fin_cases a <;> rfl

/-- Where the three windows' blocks sit at grid point t: the first argument's and the result's at block row t, the
    second argument's always at the origin. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The complement depends on its three arguments only. -/
theorem complement_congr {u u' : Fin 1024 → EReal} {Y Y' : Fin 256 → Fin 1024 → EReal} {q q' : Fin 256}
    (hu : u = u') (hY : Y = Y') (hq : q = q') : complement u Y q = complement u' Y' q' := by
  subst hu; subst hY; subst hq; rfl

/-- What point t writes back is block t of the whole-array function of the two arguments. -/
theorem flushed_eq (c : Dev nD) (t : Fin cfg0.N) :
    (dats m 0 c).flushed 2 t
      = ((cfg0.win 2).blk t).view.read (Elt Ideal) (probabilities (V m c main_arg0) (V m c main_arg1)) := by
  rw [Cert.KernelIdeal.Value.flushed2]
  unfold out0_2
  rw [View.canon_unit_zero zeroOffsets]
  simp only [View.ld_unit_zero (S := S256x1024) zeroOffsets]
  obtain ⟨a0, a1, b0, b1, o0, o1⟩ := blockIndices t
  funext j
  show k0_pay1 (F := Ideal) (iblk m c 0 t) (iblk m c 1 t) j
      = probabilities (V m c main_arg0) (V m c main_arg1) (((cfg0.win 2).blk t).view.emb j)
  refine (Cert.KernelIdeal.Block.pay_at (iblk m c 0 t) (iblk m c 1 t) j).trans ?_
  refine complement_congr (funext fun k => ?_) (funext fun r => funext fun k => ?_) (Fin.ext ?_)
  · show V m c main_arg0 (((cfg0.win 0).blk t).view.emb (ix2 (j 0) k))
        = V m c main_arg0 (ix2 ((((cfg0.win 2).blk t).view.emb j) 0) k)
    refine congrArg _ (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 1024 + 1 * k.val = k.val
      omega
  · show V m c main_arg1 (((cfg0.win 1).blk t).view.emb (ix2 r k)) = V m c main_arg1 (ix2 r k)
    refine congrArg _ (funext fun a => Fin.ext ?_)
    match a with
    | ⟨0, _⟩ =>
      show win0_1.index t (0 : Fin 2) * 256 + 1 * r.val = r.val
      omega
    | ⟨1, _⟩ =>
      show win0_1.index t (1 : Fin 2) * 1024 + 1 * k.val = k.val
      omega
  · show (j 1).val = win0_2.index t (1 : Fin 2) * 256 + 1 * (j 1).val
    omega

/-- An index of the result array is in point t's block iff each coordinate is in the block's range on its axis. -/
theorem mem_block (t : Fin cfg0.N) (i : S1024x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0).slice (win0_2.rect t)).set ↔ _
  rw [View.set_slice_whole, Rect.mem_set_unit]
  exact Iff.rfl

/-- Every index of the result array lies in the block of the point its row falls to: row r in block r / 256. -/
theorem covered (i : S1024x256.Idx) :
    ∃ t : Fin cfg0.N, (cfg0.win 2).flush t = true ∧ i ∈ ((cfg0.win 2).blk t).view.set := by
  have hi0 : (i 0).val < 1024 := (i 0).isLt
  have hi1 : (i 1).val < 256 := (i 1).isLt
  have ht : (i 0).val / 256 < grid0.N := by rw [N_0]; omega
  obtain ⟨t, htv⟩ : ∃ t : Fin cfg0.N, t.val = (i 0).val / 256 := ⟨⟨(i 0).val / 256, ht⟩, rfl⟩
  obtain ⟨-, -, -, -, o0, o1⟩ := blockIndices t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- After the run the result array is the whole-array function of the two arguments as launched. -/
theorem final (c : Dev nD) :
    (dats m 0 c).arrAt 2 cfg0.N
      = probabilities (m ((c : Thread nD τ).loc main_arg0)) (m ((c : Thread nD τ).loc main_arg1)) :=
  (dats m 0 c).arrAt_eq_of_cover 2 (probabilities (V m c main_arg0) (V m c main_arg1))
    (fun t _ => flushed_eq m c t) covered

/-- The kernel's run, read: the result at the whole-array function, the arguments unchanged. -/
theorem run : θ_run defs (onTc (τ := τ) (main (F := Ideal))) ⟨m, fun _ => 0, ρ⟩ fun r => ∀ c : Dev nD,
      r.2.mem ((c : Thread nD τ).loc main_v0)
        = probabilities (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.ReferenceValue.lean ====
/-
  The reference's result, entry by entry.

  The reference computes the same quantities on whole arrays: the squared norms of all 1024 context rows and of the 256
  result rows as host sums from a zero initial value, the cross terms as one contraction over the shared axis, the
  distances pointwise, each row's top value as a host maximum from −∞ joined with −∞, the weights, their row sums and
  the complement. Read at (n, q), each stage is the row-wise quantity of `Cert.DistanceSoftmax` for context row n:
  a zero initial value adds nothing to a sum, and the per-row and per-column quantities are broadcast by index maps
  that forget the column, respectively the row.
-/
import proofs.«155934_j13881334300951_1_alg».proof.Proof.Gen.ReferenceIdeal.Read
import proofs.«155934_j13881334300951_1_alg».proof.Proof.DistanceSoftmax
import proofs.«155934_j13881334300951_1_alg».proof.Proof.LibRowwise

noncomputable section

namespace Cert.ReferenceIdeal.Rows

open Cert.ReferenceIdeal Cert.ReferenceIdeal.Gen Cert.ReferenceIdeal.Read
open Idealize.ShloMosaic Idealize.ShloMosaic.ValueIdx
open Cert.DistanceSoftmax Cert.LibRowwise
open scoped BigOperators

/-! ## The index maps of the broadcasts and contractions, by coordinates -/

theorem rowOf_col (n : Fin 1024) (q : Fin 256) : idx_main_v8 (ix2 n q) = ix2 n (0 : Fin 1) :=
  funext fun a => Fin.ext (by match a with | ⟨0, _⟩ => rfl | ⟨1, _⟩ => rfl)

theorem rowOf_keep (n : Fin 1024) (u : Fin 1) : idx_main_v2 (ix2 n u) = ix1 n :=
  funext fun a => Fin.ext (by match a with | ⟨0, _⟩ => rfl)

theorem colOf_row (n : Fin 1024) (q : Fin 256) : idx_main_v11 (ix2 n q) = ix2 (0 : Fin 1) q :=
  funext fun a => Fin.ext (by match a with | ⟨0, _⟩ => rfl | ⟨1, _⟩ => rfl)

theorem colOf_keep (u : Fin 1) (q : Fin 256) : idx_main_v10 (ix2 u q) = ix1 q :=
  funext fun a => Fin.ext (by match a with | ⟨0, _⟩ => rfl)

theorem ctxEntry (n : Fin 1024) (k : Fin 1024) : idx_main_v1 (ix1 n) k = ix2 n k :=
  funext fun a => Fin.ext (by match a with | ⟨0, _⟩ => rfl | ⟨1, _⟩ => rfl)

theorem resEntry (q : Fin 256) (k : Fin 1024) : idx_main_v4 (ix1 q) k = ix2 q k :=
  funext fun a => Fin.ext (by match a with | ⟨0, _⟩ => rfl | ⟨1, _⟩ => rfl)

theorem crossLeft (n : Fin 1024) (q : Fin 256) (k : Fin 1024) : lidx_main_v5 (ix2 n q) k = ix2 n k :=
  funext fun a => Fin.ext (by match a with | ⟨0, _⟩ => rfl | ⟨1, _⟩ => rfl)

theorem crossRight (n : Fin 1024) (q : Fin 256) (k : Fin 1024) : ridx_main_v5 (ix2 n q) k = ix2 q k :=
  funext fun a => Fin.ext (by match a with | ⟨0, _⟩ => rfl | ⟨1, _⟩ => rfl)

/-! ## The stages at (n, q) -/

variable (x : (⟨S1024x1024, .f32⟩ : BufTy).Contents (Elt Ideal)) (y : (⟨S256x1024, .f32⟩ : BufTy).Contents (Elt Ideal))

/-- The squared norm of context row n. -/
theorem ctxNorm_apply (n : Fin 1024) : val_main_v1 (F := Ideal) x (ix1 n) = sqNorm (row x n) := by
  rw [val_main_v1_apply]
  simp only [val_main_v0_apply, val_main_cst_apply, ctxEntry, Ideal.ofBits_def, Ideal.ofBits_zero_f32, zero_add, Ideal.mulf_def]
  rfl

/-- The squared norm of result row q. -/
theorem resNorm_apply (q : Fin 256) : val_main_v4 (F := Ideal) y (ix1 q) = sqNorm (row y q) := by
  rw [val_main_v4_apply]
  simp only [val_main_v3_apply, val_main_cst_0_apply, resEntry, Ideal.ofBits_def, Ideal.ofBits_zero_f32, zero_add, Ideal.mulf_def]
  rfl

/-- The cross term of context row n and result row q. -/
theorem cross_apply (n : Fin 1024) (q : Fin 256) : val_main_v5 (F := Ideal) x y (ix2 n q) = inner (row x n) (row y q) := by
  rw [val_main_v5_apply]
  simp only [crossLeft, crossRight]
  rfl

/-- The distance from context row n to result row q. -/
theorem dist_apply (n : Fin 1024) (q : Fin 256) : val_main_v15 (F := Ideal) x y (ix2 n q) = dist (row x n) (row y) q := by
  rw [val_main_v15_apply, val_main_v14_apply, val_main_v12_apply, val_main_v9_apply, val_main_v7_apply,
    val_main_v8_apply, val_main_v11_apply, val_main_v13_apply, val_main_v6_apply,
    rowOf_col, colOf_row, val_main_v2_apply, val_main_v10_apply, rowOf_keep, colOf_keep,
    ctxNorm_apply, resNorm_apply, cross_apply, val_main_cst_1_apply, val_main_cst_2_apply]
  rfl

/-- The top value of context row n. -/
theorem top_apply (n : Fin 1024) : val_main_v18 (F := Ideal) x y (ix1 n) = top (row x n) (row y) := by
  rw [val_main_v18_apply, val_main_v17_apply, val_main_cst_4_apply]
  unfold val_main_v16
  rw [hostRowMax_apply (val_main_v15 (F := Ideal) x y) (val_main_cst_3 (F := Ideal)) reducesTo_S1024x256_S1024_d1 (by decide) h_S_ n]
  simp only [dist_apply, val_main_cst_3_apply]
  rfl

theorem topOf_col (n : Fin 1024) (q : Fin 256) : idx_main_v20 (ix2 n q) = ix2 n (0 : Fin 1) :=
  funext fun a => Fin.ext (by match a with | ⟨0, _⟩ => rfl | ⟨1, _⟩ => rfl)

theorem topOf_keep (n : Fin 1024) (u : Fin 1) : idx_main_v19 (ix2 n u) = ix1 n :=
  funext fun a => Fin.ext (by match a with | ⟨0, _⟩ => rfl)

/-- The softmax weight at (n, q). -/
theorem weight_apply (n : Fin 1024) (q : Fin 256) : val_main_v22 (F := Ideal) x y (ix2 n q) = weight (row x n) (row y) q := by
  rw [val_main_v22_apply, val_main_v21_apply, val_main_v20_apply, topOf_col, val_main_v19_apply, topOf_keep,
    top_apply, dist_apply]
  rfl

theorem sumOf_col (n : Fin 1024) (q : Fin 256) : idx_main_v25 (ix2 n q) = ix2 n (0 : Fin 1) :=
  funext fun a => Fin.ext (by match a with | ⟨0, _⟩ => rfl | ⟨1, _⟩ => rfl)

theorem sumOf_keep (n : Fin 1024) (u : Fin 1) : idx_main_v24 (ix2 n u) = ix1 n :=
  funext fun a => Fin.ext (by match a with | ⟨0, _⟩ => rfl)

theorem weightEntry (n : Fin 1024) (r : Fin 256) : idx_main_v23 (ix1 n) r = ix2 n r :=
  funext fun a => Fin.ext (by match a with | ⟨0, _⟩ => rfl | ⟨1, _⟩ => rfl)

/-- The sum of row n's weights. -/
theorem weightSum_apply (n : Fin 1024) :
    val_main_v23 (F := Ideal) x y (ix1 n) = ∑ r : Fin 256, weight (row x n) (row y) r := by
  rw [val_main_v23_apply]
  simp only [weightEntry, weight_apply, val_main_cst_5_apply, Ideal.ofBits_def, Ideal.ofBits_zero_f32, zero_add]

/-- The reference's result at (n, q). -/
theorem result_apply (n : Fin 1024) (q : Fin 256) :
    val_main_v28 (F := Ideal) x y (ix2 n q) = complement (row x n) (row y) q := by
  rw [val_main_v28_apply, val_main_v27_apply, val_main_cst_6_apply, val_main_v26_apply, val_main_v25_apply, sumOf_col,
    val_main_v24_apply, sumOf_keep, weightSum_apply, weight_apply]
  rfl

/-- The reference's result is the whole-array function. -/
theorem result_eq : val_main_v28 (F := Ideal) x y = probabilities x y := by
  funext i
  obtain ⟨n, q, rfl⟩ : ∃ (n : Fin 1024) (q : Fin 256), i = ix2 n q := ⟨i 0, i 1, eq_ix2 i⟩
  exact result_apply x y n q

end Cert.ReferenceIdeal.Rows

end
-- ==== Proof.lean ====
/-
  The kernel and its reference compute, at the exact instance, the same array: one minus the row-wise softmax of the
  pairwise distances between 1024 context rows and 256 result rows.

  For context row u and result row Y_q the distance is sqrt (max (|u|² − 2·⟨u, Y_q⟩ + |Y_q|², 0)); a row's weights are
  exp (d_q − t) with t the row's largest distance (folded from −∞), and the output is 1 − w_q / Σ_r w_r
  (Proof/DistanceSoftmax.lean). The kernel works on four blocks of 256 context rows, taking the cross terms by a
  matrix product into a zero accumulator after a change of float format that is the identity on exact values; entry
  (p, q) of a block it writes is that row-wise quantity for the block's row p (Proof/BlockValue.lean), the four blocks
  are the four row ranges of one whole-array function and cover the result (Proof/ArrayValue.lean). The reference does
  the same operations on whole arrays, and read at (n, q) gives the same row-wise quantity for context row n
  (Proof/ReferenceValue.lean). The two sides are one formula, operation for operation: no algebraic law beyond
  "a zero initial value adds nothing to a sum" is used, and the finiteness of the inputs is never needed.

  The idealization rewrote no operation, so it preserves the kernel trivially; the three frames are the generated
  frame runs, the reference's being its generated run with the result dropped.
-/
import proofs.«155934_j13881334300951_1_alg».proof.Defs
import proofs.«155934_j13881334300951_1_alg».proof.Proof.Gen.Kernel
import proofs.«155934_j13881334300951_1_alg».proof.Proof.Gen.Kernel.Skeleton
import proofs.«155934_j13881334300951_1_alg».proof.Proof.Gen.Kernel.Launch
import proofs.«155934_j13881334300951_1_alg».proof.Proof.Gen.Kernel.Points
import proofs.«155934_j13881334300951_1_alg».proof.Proof.Gen.Kernel.Frame
import proofs.«155934_j13881334300951_1_alg».proof.Proof.Gen.KernelIdeal
import proofs.«155934_j13881334300951_1_alg».proof.Proof.Gen.KernelIdeal.Skeleton
import proofs.«155934_j13881334300951_1_alg».proof.Proof.Gen.KernelIdeal.Launch
import proofs.«155934_j13881334300951_1_alg».proof.Proof.Gen.KernelIdeal.Points
import proofs.«155934_j13881334300951_1_alg».proof.Proof.Gen.KernelIdeal.Frame
import proofs.«155934_j13881334300951_1_alg».proof.Proof.Gen.ReferenceIdeal
import proofs.«155934_j13881334300951_1_alg».proof.Proof.Gen.Pre_finite_inputs
import proofs.«155934_j13881334300951_1_alg».proof.Proof.Gen.KernelIdeal.Value
import proofs.«155934_j13881334300951_1_alg».proof.Proof.Gen.ReferenceIdeal.Run
import proofs.«155934_j13881334300951_1_alg».proof.Proof.Gen.ReferenceIdeal.Read
import proofs.«155934_j13881334300951_1_alg».proof.Proof.ArrayValue
import proofs.«155934_j13881334300951_1_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the two arguments, both programs end with the result at the same whole-array function
    of the arguments: the kernel by its four blocks, the reference stage by stage. -/
theorem algebraic : Cert.algebraic_KernelIdeal_ReferenceIdeal := by
  intro m ρ m' ρ' _ hagree
  refine ⟨fun c => Cert.DistanceSoftmax.probabilities
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
